-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200 : Shape := ⟨2, ![16384, 200]⟩
abbrev S200x64 : Shape := ⟨2, ![200, 64]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_

variable [Facts]

def fn {F : FTy → Type} [FloatOps F] (main_arg0 : FVec F S16384x200 .f32) (main_arg1 : FVec F S200x64 .f32) : IVec S_ 1 :=
  let main_v0 : FVec F S16384x200 .f32 := Host.absf main_arg0
  let main_cst : FVec F S_ .f32 := constant S_ .f32 0x7F800000#32
  let main_v1 : FVec F S16384x200 .f32 := broadcastInDim S16384x200 ![] bcast_S_S16384x200 main_cst
  let main_v2 : IVec S16384x200 1 := cmpf .olt main_v0 main_v1
  let main_c : IVec S_ 1 := constantI S_ 1 1#1
  let main_v3 : IVec S_ 1 := (fun x v => Host.reduce IntOp.andi x v reducesTo_S16384x200_S_d0_1 h_S_) main_v2 main_c
  let main_v4 : FVec F S200x64 .f32 := Host.absf main_arg1
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  main_v8
-- ==== Kernel.lean ====
abbrev S16384x200 : Shape := ⟨2, ![16384, 200]⟩
abbrev S200x64 : Shape := ⟨2, ![200, 64]⟩
abbrev S128x128 : Shape := ⟨2, ![128, 128]⟩
abbrev S1024x200 : Shape := ⟨2, ![1024, 200]⟩
abbrev S8x128 : Shape := ⟨2, ![8, 128]⟩
abbrev S1024x64 : Shape := ⟨2, ![1024, 64]⟩
abbrev S1024 : Shape := ⟨1, ![1024]⟩
abbrev S16384x1 : Shape := ⟨2, ![16384, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x200, .f32⟩
  | .hbm, ⟨1, _⟩ => ⟨S200x64, .f32⟩
  | .hbm, ⟨2, _⟩ => ⟨S200x64, .f32⟩
  | .hbm, ⟨3, _⟩ => ⟨S128x128, .f32⟩
  | .hbm, ⟨4, _⟩ => ⟨S16384x1, .f32⟩
  | .local _ .vmem, ⟨0, _⟩ => ⟨S1024x200, .f32⟩
  | .local _ .vmem, ⟨1, _⟩ => ⟨S1024x200, .f32⟩
  | .local _ .vmem, ⟨2, _⟩ => ⟨S200x64, .f32⟩
  | .local _ .vmem, ⟨3, _⟩ => ⟨S200x64, .f32⟩
  | .local _ .vmem, ⟨4, _⟩ => ⟨S8x128, .f32⟩
  | .local _ .vmem, ⟨5, _⟩ => ⟨S8x128, .f32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x200_S1024x200_0_0 : ∀ a, (![0, 0] : Fin 2 → Nat) a + S1024x200.size a ≤ S1024x200.size a
  h_S1024x200 : 0 < S1024x200.numel
  inb_S200x64_S200x64_0_0 : ∀ a, (![0, 0] : Fin 2 → Nat) a + S200x64.size a ≤ S200x64.size a
  h_S200x64 : 0 < S200x64.numel
  shapeCasts_S200x64_S200x64 : S200x64.ShapeCasts S200x64
  reduces_S1024x64_S1024 : S1024x64.Reduces [1] S1024
  shapeCasts_S1024_S8x128 : S1024.ShapeCasts S8x128
  inb_S8x128_S8x128_0_0 : ∀ a, (![0, 0] : Fin 2 → Nat) a + S8x128.size a ≤ S8x128.size a
  h_S8x128 : 0 < S8x128.numel
  shapeCasts_S128x128_S16384x1 : S128x128.ShapeCasts S16384x1
  dot_S1024x200_S200x64_S1024x64_1_0_0_1_n_n_wf : DotDims.WF S1024x200 S200x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S16384x200.size a
  hwx0_0 : ∀ i : grid0.Coords, EltTy.bits .f32 = 32 ∨ (Rect.block (s := S16384x200) S1024x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S200x64.size a
  hwx0_2 : ∀ i : grid0.Coords, EltTy.bits .f32 = 32 ∨ (Rect.block (s := S200x64) S200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

def dot_S1024x200_S200x64_S1024x64_1_0_0_1_n_n : DotDims S1024x200 S200x64 S1024x64 where
  lhsContracting := [1]
  rhsContracting := [0]
  lhsNonContracting := [0]
  rhsNonContracting := [1]
  lhsBatch := []
  rhsBatch := []
  wf := dot_S1024x200_S200x64_S1024x64_1_0_0_1_n_n_wf

abbrev win0_0 : Pipeline.Window sig grid0 :=
  Pipeline.Window.ofSpec (Memref.whole main_arg0) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x200 : Shape := ⟨2, ![16384, 200]⟩
abbrev S200x64 : Shape := ⟨2, ![200, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 11
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S200x64, .f32⟩
  | .hbm, ⟨2, _⟩ => ⟨S16384x64, .f32⟩
  | .hbm, ⟨3, _⟩ => ⟨S16384x200, .f32⟩
  | .hbm, ⟨4, _⟩ => ⟨S200x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  dot_S16384x200_S200x64_S16384x64_1_0_0_1_n_n_wf : DotDims.WF S16384x200 S200x64 S16384x64 [1] [0] [0] [1] [] []

variable [Facts₀]

def dot_S16384x200_S200x64_S16384x64_1_0_0_1_n_n : DotDims S16384x200 S200x64 S16384x64 where
  lhsContracting := [1]
  rhsContracting := [0]
  lhsNonContracting := [0]
  rhsNonContracting := [1]
  lhsBatch := []
  rhsBatch := []
  wf := dot_S16384x200_S200x64_S16384x64_1_0_0_1_n_n_wf

class Facts : Prop extends Facts₀ where

variable [Facts]
-- ==== Proof.Spec.lean ====
/-
  The second-order interaction term of a factorization machine, one row at a time.

  For a feature matrix `X` of `B` rows and 200 features, a table `W` of 64-dimensional embedding weights (one row
  per feature) and a second table `W2` of the same shape, row `b` is sent to

      Σ_e ( (Σ_f X[b,f]·W[f,e])² − Σ_f X[b,f]²·W2[f,e] ),

  computed on the extended reals with exact operations. With `W2[f,e] = W[f,e]²` this is the sum over the embedding
  axis of "square of the sum minus sum of the squares" of the per-feature embeddings `X[b,f]·W[f,e]`.

  Nothing here is rearranged: the two programs compared against this function both form the two inner sums over
  the features first, then the square, the difference and the outer sum over the embedding axis, in this grouping,
  so no distributive law — and hence no finiteness of the entries — is needed to meet it.
-/
import Idealize.ShloMosaic.PureOps.Ideal
import Idealize.ShloMosaic.Lib.ValueIdx

noncomputable section

namespace Cert.FM

open Idealize.ShloMosaic Idealize.ShloMosaic.ValueIdx

/-- Row `b`'s interaction term, from the features `X`, the weights `W` and the table `W2` standing for the squared
    weights. -/
def rowTerm {B : Nat} (X : (⟨2, ![B, 200]⟩ : Shape).Idx → EReal) (W W2 : (⟨2, ![200, 64]⟩ : Shape).Idx → EReal)
    (b : Fin B) : EReal :=
  ∑ e : Fin 64, ((∑ f : Fin 200, X (ix2 b f) * W (ix2 f e)) * (∑ f : Fin 200, X (ix2 b f) * W (ix2 f e))
    - ∑ f : Fin 200, X (ix2 b f) * X (ix2 b f) * W2 (ix2 f e))

/-- The term of a row depends only on that row's 200 features and on the two tables' entries: rows of two
    feature matrices (of any heights) holding the same features give the same term. -/
theorem rowTerm_congr {B B' : Nat} {X : (⟨2, ![B, 200]⟩ : Shape).Idx → EReal} {X' : (⟨2, ![B', 200]⟩ : Shape).Idx → EReal}
    {W W2 W' W2' : (⟨2, ![200, 64]⟩ : Shape).Idx → EReal} {b : Fin B} {b' : Fin B'}
    (hX : ∀ f : Fin 200, X (ix2 b f) = X' (ix2 b' f))
    (hW : ∀ (f : Fin 200) (e : Fin 64), W (ix2 f e) = W' (ix2 f e))
    (hW2 : ∀ (f : Fin 200) (e : Fin 64), W2 (ix2 f e) = W2' (ix2 f e)) :
    rowTerm X W W2 b = rowTerm X' W' W2' b' := by
  unfold rowTerm
  simp only [hX, hW, hW2]

/-- The whole result, a column of 16384 entries: entry `(b, 0)` is row `b`'s term with the squared weights
    `W[f,e]·W[f,e]` in the second table. -/
def result (X : (⟨2, ![16384, 200]⟩ : Shape).Idx → EReal) (W : (⟨2, ![200, 64]⟩ : Shape).Idx → EReal) :
    (⟨2, ![16384, 1]⟩ : Shape).Idx → EReal :=
  fun i => rowTerm X W (fun j => W j * W j) ⟨(i 0).val, (i 0).isLt⟩

end Cert.FM

end
-- ==== Proof.RefValue.lean ====
/-
  The reference program's result, read entry by entry, is the interaction term of `Spec.lean`.

  The reference forms `S = X·W` (a matrix product: entry `(b,e)` is the sum over the 200 features of
  `X[b,f]·W[f,e]`), `Q = (X∘X)·(W∘W)` likewise from the entrywise squares, then `S∘S − Q`, then the sum of each
  row over the 64 embedding coordinates starting from the constant zero, and finally places the 16384 sums in a column.
  Entry `(b, 0)` is therefore `0 + Σ_e (S[b,e]·S[b,e] − Q[b,e])`, and the leading zero is absorbed.
-/
import proofs.«112166_j14336600834857_2_alg».proof.Proof.Gen.ReferenceIdeal.Read
import proofs.«112166_j14336600834857_2_alg».proof.Proof.Spec
import Idealize.ShloMosaic.PureOps.Ideal.Laws
import Idealize.ShloMosaic.Lib.ValueIdx

noncomputable section

namespace Cert.ReferenceIdeal.Hand

open Cert.ReferenceIdeal Cert.ReferenceIdeal.Gen Cert.ReferenceIdeal.Read
open Idealize.ShloMosaic Idealize.ShloMosaic.ValueIdx

/-- Entry `(b, z)` of the reference's column (there is only `z = 0`) is row `b`'s interaction term, the second
    table being the entrywise square of the weights. -/
theorem val_entry (X : (⟨S16384x200, .f32⟩ : BufTy).Contents (Elt Ideal)) (W : (⟨S200x64, .f32⟩ : BufTy).Contents (Elt Ideal))
    (b : Fin 16384) (z : Fin 1) :
    val_main_v7 (F := Ideal) X W (ix2 b z) = Cert.FM.rowTerm X W (fun j => W j * W j) b := by
  rw [val_main_v7_apply, val_main_v6_apply, val_main_cst_apply]
  show Ideal.ofBits .f32 0x00000000#32 + _ = _
  rw [Ideal.ofBits_zero_f32, zero_add]
  unfold Cert.FM.rowTerm
  refine Finset.sum_congr rfl fun e _ => ?_
  rw [val_main_v5_apply, val_main_v4_apply, val_main_v0_apply, val_main_v3_apply]
  simp only [val_main_v1_apply, val_main_v2_apply]
  -- the operand indices of the two matrix products at output entry (b, e) and feature k are (b, k) and (k, e)
  have el0 : ∀ k : Fin 200, lidx_main_v0 (idx_main_v6 (idx_main_v7 (ix2 b z)) e) k = ix2 b k := fun k =>
    funext fun a => Fin.ext (by match a with | ⟨0, _⟩ => rfl | ⟨1, _⟩ => rfl)
  have er0 : ∀ k : Fin 200, ridx_main_v0 (idx_main_v6 (idx_main_v7 (ix2 b z)) e) k = ix2 k e := fun k =>
    funext fun a => Fin.ext (by match a with | ⟨0, _⟩ => rfl | ⟨1, _⟩ => rfl)
  have el3 : ∀ k : Fin 200, lidx_main_v3 (idx_main_v6 (idx_main_v7 (ix2 b z)) e) k = ix2 b k := fun k =>
    funext fun a => Fin.ext (by match a with | ⟨0, _⟩ => rfl | ⟨1, _⟩ => rfl)
  have er3 : ∀ k : Fin 200, ridx_main_v3 (idx_main_v6 (idx_main_v7 (ix2 b z)) e) k = ix2 k e := fun k =>
    funext fun a => Fin.ext (by match a with | ⟨0, _⟩ => rfl | ⟨1, _⟩ => rfl)
  simp only [el0, er0, el3, er3]
  rfl

/-- The reference's whole result is the specified column. -/
theorem val_eq_result (X : (⟨S16384x200, .f32⟩ : BufTy).Contents (Elt Ideal)) (W : (⟨S200x64, .f32⟩ : BufTy).Contents (Elt Ideal)) :
    val_main_v7 (F := Ideal) X W = Cert.FM.result X W := by
  funext i
  obtain ⟨b, z, rfl⟩ : ∃ (b : Fin 16384) (z : Fin 1), i = ix2 b z := ⟨i 0, i 1, eq_ix2 i⟩
  exact val_entry X W b z

end Cert.ReferenceIdeal.Hand

end
-- ==== Proof.Payload.lean ====
/-
  What one grid step of the kernel computes, read entry by entry.

  A step holds 1024 rows of the features (`x0`, [1024,200]), the weights (`x1`, [200,64]) and the table of squared
  weights (`x2`, [200,64]). It forms the two matrix products `x0·x1` and `(x0∘x0)·x2` into zero accumulators, the
  entrywise `(x0·x1)∘(x0·x1) − (x0∘x0)·x2`, sums each of the 1024 rows over the 64 embedding coordinates, and lays the
  1024 sums out as 8 rows of 128 lanes in row-major order: entry `(p, q)` of the [8,128] tile is the sum of row
  `128·p + q` of the step's rows. That is the interaction term of `Spec.lean` at that row.
-/
import proofs.«112166_j14336600834857_2_alg».proof.Proof.Gen.KernelIdeal.Skeleton
import proofs.«112166_j14336600834857_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- Row `128·p + q` of a step's 1024 rows: where entry `(p, q)` of the [8,128] tile comes from. -/
def tileRow (p : Fin 8) (q : Fin 128) : Fin 1024 := ⟨p.val * 128 + q.val, by have := p.isLt; have := q.isLt; omega⟩

/-- The product's left operand index at output entry `i` keeps `i`'s row. -/
theorem lhs_row (i : S1024x64.Idx) (k : dot_S1024x200_S200x64_S1024x64_1_0_0_1_n_n.contr.Idx) :
    (dot_S1024x200_S200x64_S1024x64_1_0_0_1_n_n.lhsIdx i k 0).val = (i 0).val := by
  unfold DotDims.lhsIdx
  rw [dif_neg (show ¬(0 : Fin S1024x200.rank) ∈ dot_S1024x200_S200x64_S1024x64_1_0_0_1_n_n.lhsBatch by decide),
    dif_pos (show (0 : Fin S1024x200.rank) ∈ dot_S1024x200_S200x64_S1024x64_1_0_0_1_n_n.lhsNonContracting by decide)]
  rfl

/-- The product's right operand index at output entry `i` keeps `i`'s column. -/
theorem rhs_col (i : S1024x64.Idx) (k : dot_S1024x200_S200x64_S1024x64_1_0_0_1_n_n.contr.Idx) :
    (dot_S1024x200_S200x64_S1024x64_1_0_0_1_n_n.rhsIdx i k 1).val = (i 1).val := by
  unfold DotDims.rhsIdx
  rw [dif_neg (show ¬(1 : Fin S200x64.rank) ∈ dot_S1024x200_S200x64_S1024x64_1_0_0_1_n_n.rhsBatch by decide),
    dif_pos (show (1 : Fin S200x64.rank) ∈ dot_S1024x200_S200x64_S1024x64_1_0_0_1_n_n.rhsNonContracting by decide)]
  rfl

/-- A step's matrix product into the zero accumulator, at entry `(r, e)`: the sum over the 200 features of
    `A[r,f]·Bm[f,e]`. -/
theorem matmul_entry (A : FVec Ideal S1024x200 .f32) (Bm : FVec Ideal S200x64 .f32) (r : Fin 1024) (e : Fin 64) :
    matmul dot_S1024x200_S200x64_S1024x64_1_0_0_1_n_n (some .fp32) A Bm (constant (F := Ideal) S1024x64 .f32 0x00000000#32) (ix2 r e)
      = ∑ f : Fin 200, A (ix2 r f) * Bm (ix2 f e) := by
  simp only [matmul]
  rw [Ideal.matmul_constant_zero_apply,
    ← Equiv.sum_comp (ValueIdx.contrEquiv1 dot_S1024x200_S200x64_S1024x64_1_0_0_1_n_n 200 rfl rfl).symm]
  refine Finset.sum_congr rfl fun k _ => ?_
  have hk := ValueIdx.contrEquiv1_symm_val dot_S1024x200_S200x64_S1024x64_1_0_0_1_n_n 200 rfl rfl k
  have el : dot_S1024x200_S200x64_S1024x64_1_0_0_1_n_n.lhsIdx (ix2 r e)
      ((ValueIdx.contrEquiv1 dot_S1024x200_S200x64_S1024x64_1_0_0_1_n_n 200 rfl rfl).symm k) = ix2 r k :=
    funext fun a => Fin.ext (by
      match a with
      | ⟨0, _⟩ => exact lhs_row _ _
      | ⟨1, _⟩ => exact (dot_S1024x200_S200x64_S1024x64_1_0_0_1_n_n.lhsIdx_val_of_single rfl _ _).trans hk)
  have er : dot_S1024x200_S200x64_S1024x64_1_0_0_1_n_n.rhsIdx (ix2 r e)
      ((ValueIdx.contrEquiv1 dot_S1024x200_S200x64_S1024x64_1_0_0_1_n_n 200 rfl rfl).symm k) = ix2 k e :=
    funext fun a => Fin.ext (by
      match a with
      | ⟨0, _⟩ => exact (dot_S1024x200_S200x64_S1024x64_1_0_0_1_n_n.rhsIdx_val_of_single rfl _ _).trans hk
      | ⟨1, _⟩ => exact rhs_col _ _)
  rw [el, er]

/-- The sum of row `r` of a [1024,64] value over its 64 lanes. -/
theorem laneSum_entry (v : FVec Ideal S1024x64 .f32) (r : Fin 1024) :
    multiReduction .add [1] S1024 v 0x00000000#32 reduces_S1024x64_S1024 (.inl rfl) rfl (ix1 r) = ∑ e : Fin 64, v (ix2 r e) :=
  (Ideal.multiReduction_add_single v 0x00000000#32 reduces_S1024x64_S1024 (.inl rfl) rfl (ix1 r)).trans
    (Finset.sum_congr rfl fun e _ => congrArg v (funext fun a => Fin.ext (by
      match a with | ⟨0, _⟩ => rfl | ⟨1, _⟩ => rfl)))

/-- Entry `(p, q)` of what a step stores is the interaction term of row `128·p + q` of the step's rows. -/
theorem pay_entry (x0 : Vec Ideal S1024x200 .f32) (x1 x2 : Vec Ideal S200x64 .f32) (p : Fin 8) (q : Fin 128) :
    k0_pay1 (F := Ideal) x0 x1 x2 (ix2 p q) = Cert.FM.rowTerm x0 x1 x2 (tileRow p q) := by
  unfold k0_pay1
  refine (shapeCast_apply _ shapeCasts_S1024_S8x128 (ix2 p q) (ix1 (tileRow p q)) ?_).trans ?_
  · rw [Shape.rowMajor_val_one, Shape.rowMajor_val_two]; rfl
  refine (laneSum_entry _ (tileRow p q)).trans ?_
  unfold Cert.FM.rowTerm
  refine Finset.sum_congr rfl fun e _ => ?_
  rw [subf_apply, mulf_apply, matmul_entry, matmul_entry, shapeCast_self]
  rfl

/-- The same at any index `y` of the tile: the term of row `128·y₀ + y₁`. -/
theorem pay_at (x0 : Vec Ideal S1024x200 .f32) (x1 x2 : Vec Ideal S200x64 .f32) (y : S8x128.Idx) :
    k0_pay1 (F := Ideal) x0 x1 x2 y
      = Cert.FM.rowTerm x0 x1 x2 ⟨(y 0).val * 128 + (y 1).val, by have := idx2_lt0 y; have := idx2_lt1 y; omega⟩ := by
  obtain ⟨p, q, rfl⟩ : ∃ (p : Fin 8) (q : Fin 128), y = ix2 p q := ⟨y 0, y 1, eq_ix2 y⟩
  exact pay_entry x0 x1 x2 p q

end Cert.KernelIdeal.Hand

end
-- ==== Proof.Blocks.lean ====
/-
  From what each grid step writes back to the whole [128,128] array the kernel fills.

  The grid has 16 steps. Step `t` is handed rows `1024·t … 1024·t + 1023` of the features, the whole weight table
  and the whole table of squared weights (which the host formed as `W∘W` before the kernel started), and writes the
  [8,128] tile of Payload.lean to rows `8·t … 8·t + 7` of the [128,128] output. Entry `(p, q)` of that tile is the
  interaction term of the step's row `128·p + q`, that is of feature row `1024·t + 128·p + q = 128·(8·t + p) + q`. So
  every step writes a block of ONE array-wide function: entry `(r, l)` of the output is the term of feature row
  `128·r + l`. The 16 tiles cover the 128 output rows (row `r` lies in step `r / 8`'s tile), so after the last step
  the output is that function everywhere.
-/
import proofs.«112166_j14336600834857_2_alg».proof.Proof.Gen.KernelIdeal.Frame
import proofs.«112166_j14336600834857_2_alg».proof.Proof.Payload
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The feature matrix on core `c` as launched, as a function of its index. -/
abbrev feats (c : Dev nD) : S16384x200.Idx → EReal := m ((c : Thread nD τ).loc main_arg0)
/-- The weight table on core `c` as launched, as a function of its index. -/
abbrev wts (c : Dev nD) : S200x64.Idx → EReal := m ((c : Thread nD τ).loc main_arg1)

/-- Which block each window takes at step `t`: the features' and the output's move down with the step, the two
    weight tables stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array-wide function the kernel fills: entry `(r, l)` is the interaction term of feature row `128·r + l`, with
    the entrywise square of the weights as the second table. -/
def lanes (X : S16384x200.Idx → EReal) (W : S200x64.Idx → EReal) : S128x128.Idx → EReal :=
  fun i => Cert.FM.rowTerm X W (fun j => W j * W j)
    ⟨(i 0).val * 128 + (i 1).val, by have := idx2_lt0 i; have := idx2_lt1 i; omega⟩

/-- The table of squared weights the kernel is handed is the host's entrywise product of the weights with themselves. -/
theorem V_sq (c : Dev nD) :
    (V m c main_v0 : S200x64.Idx → EReal) = fun j => wts m c j * wts m c j := by
  show StableHlo.after hostOps0 (fun b => m (c, b)) (Proc.devRef .tc main_v0) = _
  after_results
  rfl

/-- Step `t`'s block of the features, at `(r, f)`: feature row `1024·t + r`. -/
theorem iblk0_entry (c : Dev nD) (t : Fin cfg0.N) (r : Fin 1024) (f : Fin 200) (b : Fin 16384) (hb : b.val = t.val * 1024 + r.val) :
    (iblk m c 0 t : Vec Ideal S1024x200 .f32) (ix2 r f)
      = feats m c (ix2 b f) := by
  obtain ⟨h00, h01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * r.val = b.val; rw [h00, hb]; omega
  | ⟨1, _⟩ => show win0_0.index t (1 : Fin 2) * 200 + 1 * f.val = f.val; rw [h01]; omega

/-- Step `t`'s block of the weights is the whole table. -/
theorem iblk1_entry (c : Dev nD) (t : Fin cfg0.N) (f : Fin 200) (e : Fin 64) :
    (iblk m c 1 t : Vec Ideal S200x64 .f32) (ix2 f e) = wts m c (ix2 f e) := by
  obtain ⟨-, -, h10, h11, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 200 + 1 * f.val = f.val; rw [h10]; omega
  | ⟨1, _⟩ => show win0_1.index t (1 : Fin 2) * 64 + 1 * e.val = e.val; rw [h11]; omega

/-- Step `t`'s block of the second table is the whole table of squared weights. -/
theorem iblk2_entry (c : Dev nD) (t : Fin cfg0.N) (f : Fin 200) (e : Fin 64) :
    (iblk m c 2 t : Vec Ideal S200x64 .f32) (ix2 f e) = wts m c (ix2 f e) * wts m c (ix2 f e) := by
  obtain ⟨-, -, -, -, h20, h21, -⟩ := idx_facts t
  unfold iblk
  rw [View.read_apply]
  show V m c main_v0 _ = _
  rw [V_sq]
  show wts m c _ * wts m c _ = _
  have hi : ((cfg0.win 2).blk t).view.emb (ix2 f e) = ix2 f e := funext fun a => Fin.ext (by
    match a with
    | ⟨0, _⟩ => show win0_2.index t (0 : Fin 2) * 200 + 1 * f.val = f.val; rw [h20]; omega
    | ⟨1, _⟩ => show win0_2.index t (1 : Fin 2) * 64 + 1 * e.val = e.val; rw [h21]; omega)
  rw [hi]

/-- One tile against the array-wide function, stated over plain arrays: if `x0` holds feature rows
    `1024·tv …`, `x1` the weights and `x2` their squares, then the tile's entry `y` is `lanes` at the output index `i`
    whose row is `8·tv + y₀` and whose lane is `y₁`. -/
theorem tile_eq (x0 : Vec Ideal S1024x200 .f32) (x1 x2 : Vec Ideal S200x64 .f32)
    (X : S16384x200.Idx → EReal) (W : S200x64.Idx → EReal) (tv : Nat)
    (h0 : ∀ (r : Fin 1024) (f : Fin 200) (b : Fin 16384), b.val = tv * 1024 + r.val → x0 (ix2 r f) = X (ix2 b f))
    (h1 : ∀ (f : Fin 200) (e : Fin 64), x1 (ix2 f e) = W (ix2 f e))
    (h2 : ∀ (f : Fin 200) (e : Fin 64), x2 (ix2 f e) = W (ix2 f e) * W (ix2 f e))
    (y : S8x128.Idx) (i : S128x128.Idx) (hi0 : (i 0).val = tv * 8 + (y 0).val) (hi1 : (i 1).val = (y 1).val) :
    k0_pay1 (F := Ideal) x0 x1 x2 y = lanes X W i := by
  refine (pay_at x0 x1 x2 y).trans ?_
  unfold lanes
  have hy0 := idx2_lt0 y
  have hy1 := idx2_lt1 y
  exact Cert.FM.rowTerm_congr (B := 1024) (B' := 16384) (X := x0) (X' := X) (W := x1) (W2 := x2) (W' := W)
    (W2' := fun j => W j * W j) (fun f => h0 _ f _ (by show (i 0).val * 128 + (i 1).val = tv * 1024 + ((y 0).val * 128 + (y 1).val); omega))
    h1 h2

/-- WHAT STEP `t` WRITES BACK is block `t` of `lanes` of the two argument arrays. -/
theorem flushed_eq (c : Dev nD) (t : Fin cfg0.N) :
    (dats m 0 c).flushed 3 t = ((cfg0.win 3).blk t).view.read (Elt Ideal) (lanes (feats m c) (wts m c)) := by
  show (cfg0.win 3).cut (grid0.coords t) ((dats m 0 c).after 3 t) = _
  rw [after0_3]
  unfold out0_3
  rw [View.canon_unit_zero hz]
  simp only [View.ld_unit_zero (S := S1024x200) hz, View.ld_unit_zero (S := S200x64) hz]
  obtain ⟨-, -, -, -, -, -, h30, h31⟩ := idx_facts t
  funext j
  show k0_pay1 (F := Ideal) (iblk m c 0 t) (iblk m c 1 t) (iblk m c 2 t) j
    = lanes (feats m c) (wts m c) (((cfg0.win 3).blk t).view.emb j)
  refine tile_eq (iblk m c 0 t) (iblk m c 1 t) (iblk m c 2 t) (feats m c) (wts m c) t.val
    (fun r f b hb => iblk0_entry m c t r f b hb) (fun f e => iblk1_entry m c t f e) (fun f e => iblk2_entry m c t f e)
    j (((cfg0.win 3).blk t).view.emb j) ?_ ?_
  · show win0_3.index t (0 : Fin 2) * 8 + 1 * (j 0).val = t.val * 8 + (j 0).val
    rw [h30]; omega
  · show win0_3.index t (1 : Fin 2) * 128 + 1 * (j 1).val = (j 1).val
    rw [h31]; omega

/-- An index of the output is in step `t`'s block iff each coordinate is in the block's range on its axis. -/
theorem mem_blk (t : Fin cfg0.N) (i : S128x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v1).slice (win0_3.rect t)).set ↔ _
  rw [View.set_slice_whole, Rect.mem_set_unit]
  exact Iff.rfl

/-- Every output index lies in the tile of the step its row falls in. -/
theorem cover (i : S128x128.Idx) :
    ∃ t : Fin cfg0.N, (cfg0.win 3).flush t = true ∧ i ∈ ((cfg0.win 3).blk t).view.set := by
  have h0 : (i 0).val < 128 := idx2_lt0 i
  have h1 : (i 1).val < 128 := idx2_lt1 i
  have hN : cfg0.N = 16 := N_0
  obtain ⟨t, ht⟩ : ∃ t : Fin cfg0.N, t.val = (i 0).val / 8 := ⟨⟨(i 0).val / 8, by omega⟩, rfl⟩
  obtain ⟨-, -, -, -, -, -, h30, h31⟩ := idx_facts t
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    rw [h30, ht]; omega
  | ⟨1, _⟩ =>
    show win0_3.index t (1 : Fin 2) * 128 ≤ (i 1).val ∧ (i 1).val < win0_3.index t (1 : Fin 2) * 128 + 128
    rw [h31]; omega

/-- THE OUTPUT ARRAY after the last step is `lanes` of the two argument arrays. -/
theorem final (c : Dev nD) : (dats m 0 c).arrAt 3 cfg0.N = lanes (feats m c) (wts m c) :=
  (dats m 0 c).arrAt_eq_of_cover 3 (lanes (feats m c) (wts m c)) (fun t _ => flushed_eq m c t) cover

end Cert.KernelIdeal.Hand

end
-- ==== Proof.KernelRun.lean ====
/-
  The kernel program's run, read as a value.

  After the 16 steps the host reshapes the [128,128] array to a column of 16384 entries in row-major order: entry
  `(b, 0)` of the column is entry `(b / 128, b % 128)` of the array, which by Blocks.lean is the interaction term of
  feature row `128·(b / 128) + b % 128 = b`. So the program's result is the specified column, and its two argument
  arrays are as they were.
-/
import proofs.«112166_j14336600834857_2_alg».proof.Proof.Blocks

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A [128,128] array read as a column of 16384 in row-major order: entry `(b, 0)` is entry `(b / 128, b % 128)`. -/
theorem column_entry (A : S128x128.Idx → EReal) (b : Fin 16384) (z : Fin 1) :
    shapeCast S16384x1 A shapeCasts_S128x128_S16384x1 (ix2 b z)
      = A (ix2 (⟨b.val / 128, by have := b.isLt; omega⟩ : Fin 128) (⟨b.val % 128, by omega⟩ : Fin 128)) := by
  refine shapeCast_apply _ _ _ _ ?_
  rw [Shape.rowMajor_val_two, Shape.rowMajor_val_two]
  show b.val / 128 * 128 + b.val % 128 = b.val * 1 + z.val
  have := z.isLt; omega

/-- The column read off the filled array is the specified result. -/
theorem column_lanes (X : S16384x200.Idx → EReal) (W : S200x64.Idx → EReal) :
    shapeCast S16384x1 (lanes X W) shapeCasts_S128x128_S16384x1 = Cert.FM.result X W := by
  funext i
  obtain ⟨b, z, rfl⟩ : ∃ (b : Fin 16384) (z : Fin 1), i = ix2 b z := ⟨i 0, i 1, eq_ix2 i⟩
  refine (column_entry _ b z).trans ?_
  unfold lanes Cert.FM.result
  refine congrArg (Cert.FM.rowTerm X W _) (Fin.ext ?_)
  show b.val / 128 * 128 + b.val % 128 = b.val
  omega

/-- What the host's reshape after the kernel leaves in the result buffer. -/
theorem tail_eq (c : Dev nD) :
    Pipeline.afterTail₀ cfgs (dats m) 0 (V0 m) [hostOps1] c main_v2
      = Cert.FM.result (feats m c) (wts m c) := by
  unfold Pipeline.afterTail₀
  show StableHlo.after hostOps1 _ (Proc.devRef .tc main_v2) = _
  after_results
  rw [Pipeline.withArrays_arr spec0 launch0.win.arr_inj c _ _ 3, final m c]
  exact column_lanes _ _

/-- The result buffer is none of the kernel's arrays. -/
theorem v2_rest : main_v2 ∈ Pipeline.restRefs sig (cfgs 0).spec :=
  Pipeline.mem_restRefs_of main_v2 rfl (fun w => by fin_cases w <;> decide)

/-- THE RUN: every weakly fair execution terminates with the result buffer at the specified column of the two
    argument arrays, and those unchanged. -/
theorem run : θ_run defs (onTc (τ := τ) (main (F := Ideal))) ⟨m, fun _ => 0, ρ⟩ fun r => ∀ c : Dev nD,
      r.2.mem ((c.tc : Thread nD τ).loc main_v2)
        = Cert.FM.result (feats m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.lean ====
/-
  A factorization machine's second-order term, computed two ways, is one function of the inputs.

  Inputs: features `X` (16384 rows of 200) and per-feature embedding weights `W` (200 rows of 64). Both programs send
  them to the column whose entry `b` is

      Σ_e ( (Σ_f X[b,f]·W[f,e])² − Σ_f X[b,f]²·W[f,e]² )        (Proof/Spec.lean).

  The reference does it with two whole matrix products, an entrywise square and difference, and a sum of each row
  over the embedding axis (Proof/RefValue.lean). The kernel squares the weights on the host first, then walks the
  rows in 16 steps of 1024: each step forms the same two products for its rows, the same square and difference and
  the same row sums, and writes its 1024 sums as an [8,128] tile of a [128,128] array (Proof/Payload.lean); the tiles
  cover that array, whose entry `(r, l)` therefore belongs to feature row `128·r + l` (Proof/Blocks.lean); and the host
  reads the array back as a column in row-major order, which puts row `b`'s sum at entry `b` (Proof/KernelRun.lean).

  On the extended reals, with exact operations, the two computations agree term by term: a matrix product into a zero
  accumulator is the plain sum over the contracted axis, a row sum from the zero constant is the plain sum, and both
  sides group the sums, the square and the difference in the same way. Only the layout differs, so the equality needs
  nothing of the inputs — in particular not their finiteness — and the idealized kernel is the kernel's own text
  read with exact operations (no operation was rewritten, so there is nothing further to preserve).
-/
import proofs.«112166_j14336600834857_2_alg».proof.Defs
import proofs.«112166_j14336600834857_2_alg».proof.Proof.Gen.Kernel
import proofs.«112166_j14336600834857_2_alg».proof.Proof.Gen.Kernel.Skeleton
import proofs.«112166_j14336600834857_2_alg».proof.Proof.Gen.Kernel.Launch
import proofs.«112166_j14336600834857_2_alg».proof.Proof.Gen.Kernel.Points
import proofs.«112166_j14336600834857_2_alg».proof.Proof.Gen.Kernel.Frame
import proofs.«112166_j14336600834857_2_alg».proof.Proof.Gen.KernelIdeal
import proofs.«112166_j14336600834857_2_alg».proof.Proof.Gen.KernelIdeal.Skeleton
import proofs.«112166_j14336600834857_2_alg».proof.Proof.Gen.KernelIdeal.Launch
import proofs.«112166_j14336600834857_2_alg».proof.Proof.Gen.KernelIdeal.Points
import proofs.«112166_j14336600834857_2_alg».proof.Proof.Gen.KernelIdeal.Frame
import proofs.«112166_j14336600834857_2_alg».proof.Proof.Gen.ReferenceIdeal
import proofs.«112166_j14336600834857_2_alg».proof.Proof.Gen.ReferenceIdeal.Run
import proofs.«112166_j14336600834857_2_alg».proof.Proof.Gen.ReferenceIdeal.Read
import proofs.«112166_j14336600834857_2_alg».proof.Proof.Gen.Pre_finite_inputs
import proofs.«112166_j14336600834857_2_alg».proof.Proof.Spec
import proofs.«112166_j14336600834857_2_alg».proof.Proof.RefValue
import proofs.«112166_j14336600834857_2_alg».proof.Proof.Payload
import proofs.«112166_j14336600834857_2_alg».proof.Proof.Blocks
import proofs.«112166_j14336600834857_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed terminates without a fault and leaves its two arguments as they were. -/
theorem frame_k : Cert.frame_Kernel := fun m ρ _ => Cert.Kernel.Gen.frame m ρ

/-- So does the kernel read with exact operations. -/
theorem frame_ki : Cert.frame_KernelIdeal := fun m ρ _ => Cert.KernelIdeal.Gen.frame m ρ

/-- And the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was read with exact operations. -/
theorem preserves : Cert.preserves_Kernel_KernelIdeal := trivial

/-- From memories that agree on the features and the weights, both programs end with the column of interaction
    terms of those features and weights. -/
theorem algebraic : Cert.algebraic_KernelIdeal_ReferenceIdeal := by
  intro m ρ m' ρ' _ hagree
  refine ⟨fun c => Cert.FM.result (Cert.KernelIdeal.Hand.feats m c) (Cert.KernelIdeal.Hand.wts m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Hand.val_eq_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
